-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S24576x4096 : Shape := ⟨2, ![24576, 4096]⟩
abbrev S24576 : Shape := ⟨1, ![24576]⟩
abbrev S_ : Shape := ⟨0, ![]⟩

class Facts : Prop where
  bcast_S_S24576x4096 : S_.BroadcastsInDim S24576x4096 (![] : Fin 0 → Fin S24576x4096.rank)
  reducesTo_S24576x4096_S_d0_1 : S24576x4096.ReducesTo [0, 1] S_
  h_S_ : 0 < S_.numel

variable [Facts]

def fn {F : FTy → Type} [FloatOps F] (main_arg0 : FVec F S24576x4096 .f32) (main_arg1 : IVec S24576 32) : IVec S_ 1 :=
  let main_v0 : FVec F S24576x4096 .f32 := Host.absf main_arg0
  let main_cst : FVec F S_ .f32 := constant S_ .f32 0x7F800000#32
  let main_v1 : FVec F S24576x4096 .f32 := broadcastInDim S24576x4096 ![] bcast_S_S24576x4096 main_cst
  let main_v2 : IVec S24576x4096 1 := cmpf .olt main_v0 main_v1
  let main_c : IVec S_ 1 := constantI S_ 1 1#1
  let main_v3 : IVec S_ 1 := (fun x v => Host.reduce IntOp.andi x v reducesTo_S24576x4096_S_d0_1 h_S_) main_v2 main_c
  main_v3
-- ==== Kernel.lean ====
abbrev S24576x4096 : Shape := ⟨2, ![24576, 4096]⟩
abbrev S24576 : Shape := ⟨1, ![24576]⟩
abbrev S8192x3x4096 : Shape := ⟨3, ![8192, 3, 4096]⟩
abbrev S1x1 : Shape := ⟨2, ![1, 1]⟩
abbrev S256x3x4096 : Shape := ⟨3, ![256, 3, 4096]⟩
abbrev S256x1x4096 : Shape := ⟨3, ![256, 1, 4096]⟩
abbrev S256x4096 : Shape := ⟨2, ![256, 4096]⟩
abbrev S256 : Shape := ⟨1, ![256]⟩
abbrev S1x256 : Shape := ⟨2, ![1, 256]⟩
abbrev S1 : Shape := ⟨1, ![1]⟩

abbrev nBuf : Space → Nat
  | .hbm => 4
  | .vmem => 4
  | .smem => 0
  | _ => 0

abbrev bufTy : (tb : Table) → Fin (tcTables nBuf tb) → BufTy
  | .hbm, ⟨0, _⟩ => ⟨S24576x4096, .f32⟩
  | .hbm, ⟨1, _⟩ => ⟨S24576, .i32⟩
  | .hbm, ⟨2, _⟩ => ⟨S8192x3x4096, .f32⟩
  | .hbm, ⟨3, _⟩ => ⟨S1x1, .f32⟩
  | .local _ .vmem, ⟨0, _⟩ => ⟨S256x3x4096, .f32⟩
  | .local _ .vmem, ⟨1, _⟩ => ⟨S256x3x4096, .f32⟩
  | .local _ .vmem, ⟨2, _⟩ => ⟨S1x1, .f32⟩
  | .local _ .vmem, ⟨3, _⟩ => ⟨S1x1, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v32 : BitVec 1 := Scalar.cmpi .eq arg0 c31_i32
  let v33 : BitVec 32 := Scalar.extui v32
  let c0_i32_15 : BitVec 32 := 0#32
  let v34 : BitVec 1 := Scalar.cmpi .ne v33 c0_i32_15
  v34

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S24576x4096_S8192x3x4096 : S24576x4096.ShapeCasts S8192x3x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x3x4096_S256x1x4096_0_0_0 : ∀ a, (![0, 0, 0] : Fin 3 → Nat) a + S256x1x4096.size a ≤ S256x3x4096.size a
  h_S256x1x4096 : 0 < S256x1x4096.numel
  shapeCasts_S256x1x4096_S256x4096 : S256x1x4096.ShapeCasts S256x4096
  inb_S256x3x4096_S256x1x4096_0_1_0 : ∀ a, (![0, 1, 0] : Fin 3 → Nat) a + S256x1x4096.size a ≤ S256x3x4096.size a
  inb_S256x3x4096_S256x1x4096_0_2_0 : ∀ a, (![0, 2, 0] : Fin 3 → Nat) a + S256x1x4096.size a ≤ S256x3x4096.size a
  reduces_S256x4096_S256 : S256x4096.Reduces [1] S256
  shapeCasts_S256_S1x256 : S256.ShapeCasts S1x256
  reduces_S1x256_S1 : S1x256.Reduces [1] S1
  shapeCasts_S1_S1x1 : S1.ShapeCasts S1x1
  inpos_S1x1_p0_0 : ∀ a, (![0, 0] : Fin 2 → Nat) a < S1x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3x4096.size a ≤ S8192x3x4096.size a
  hwx0_0 : ∀ i : grid0.Coords, EltTy.bits .f32 = 32 ∨ (Rect.block (s := S8192x3x4096) S256x3x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S256x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S24576x4096 : Shape := ⟨2, ![24576, 4096]⟩
abbrev S24576 : Shape := ⟨1, ![24576]⟩
abbrev S8192x3x4096 : Shape := ⟨3, ![8192, 3, 4096]⟩
abbrev S8192x1x4096 : Shape := ⟨3, ![8192, 1, 4096]⟩
abbrev S8192x4096 : Shape := ⟨2, ![8192, 4096]⟩
abbrev S_ : Shape := ⟨0, ![]⟩
abbrev S8192 : Shape := ⟨1, ![8192]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S24576, .i32⟩
  | .hbm, ⟨2, _⟩ => ⟨S8192x3x4096, .f32⟩
  | .hbm, ⟨3, _⟩ => ⟨S8192x1x4096, .f32⟩
  | .hbm, ⟨4, _⟩ => ⟨S8192x4096, .f32⟩
  | .hbm, ⟨5, _⟩ => ⟨S8192x1x4096, .f32⟩
  | .hbm, ⟨6, _⟩ => ⟨S8192x4096, .f32⟩
  | .hbm, ⟨7, _⟩ => ⟨S8192x1x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x1, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  shapeCasts_S24576x4096_S8192x3x4096 : S24576x4096.ShapeCasts S8192x3x4096
  slices_S8192x3x4096_S8192x1x4096_0_0_0 : S8192x3x4096.Slices ![0, 0, 0] S8192x1x4096
  shapeCasts_S8192x1x4096_S8192x4096 : S8192x1x4096.ShapeCasts S8192x4096
  slices_S8192x3x4096_S8192x1x4096_0_1_0 : S8192x3x4096.Slices ![0, 1, 0] S8192x1x4096
  slices_S8192x3x4096_S8192x1x4096_0_2_0 : S8192x3x4096.Slices ![0, 2, 0] S8192x1x4096
  reducesTo_S8192x4096_S8192_d1 : S8192x4096.ReducesTo [1] S8192
  h_S_ : 0 < S_.numel
  bcast_S_S8192 : S_.BroadcastsInDim S8192 (![] : Fin 0 → Fin S8192.rank)
  reducesTo_S8192_S_d0 : S8192.ReducesTo [0] S_
  shapeCasts_S_S1x1 : S_.ShapeCasts S1x1

variable [Facts₀]

class Facts : Prop extends Facts₀ where

variable [Facts]
-- ==== Proof.TripletPieces.lean ====
/-
  What each control case of the body leaves behind, as values.

  The body keeps a `1 × 1` running total in a scratch buffer.  With `q`, `p`, `n` the three slabs of the point's
  `256 × 3 × 4096` block (rows `(r, 0, ·)`, `(r, 1, ·)`, `(r, 2, ·)`), `step q p n acc` the accumulating store's value,
  `reset` the zero it stores at the first point and `finish acc` the finishing store's value:
    first point:   the scratch is reset, read back, and left at `step q p n reset`;
    middle points: the scratch, found at `acc`, is left at `step q p n acc`;
    last point:    the scratch is left at `step q p n acc` and the output block at `finish (step q p n acc)`.
  Each store covers its whole `1 × 1` buffer, so what a buffer holds afterwards is its last store's value, and a
  read-back of a just-stored buffer is the stored value.
-/
import proofs.«179347_j37873021616787_1_alg».proof.Proof.Gen.KernelIdeal.Frame
import Idealize.ShloMosaic.Lib.Pipeline.Value
import Idealize.ShloMosaic.Lib.Tactic

noncomputable section

namespace Cert.TripletPieces

open Idealize.ShloMosaic Idealize.ShloMosaic.TcCoe Idealize.SL.Sem Cert.KernelIdeal Cert.KernelIdeal.Gen

variable {F : FTy → Type} [FloatOps F]

theorem zeroOffsets : (![0, 0] : Fin 2 → Nat) = fun _ => 0 := funext fun a => by fin_cases a <;> rfl

/-- The query, positive and negative slabs of a block: its rows `(r, 0, ·)`, `(r, 1, ·)`, `(r, 2, ·)`. -/
abbrev slabQ (x : Vec F S256x3x4096 .f32) : Vec F S256x1x4096 .f32 :=
  View.ld x (Rect.unit (s := S256x3x4096) ![0, 0, 0] S256x1x4096.size inb_S256x3x4096_S256x1x4096_0_0_0)
abbrev slabP (x : Vec F S256x3x4096 .f32) : Vec F S256x1x4096 .f32 :=
  View.ld x (Rect.unit (s := S256x3x4096) ![0, 1, 0] S256x1x4096.size inb_S256x3x4096_S256x1x4096_0_1_0)
abbrev slabN (x : Vec F S256x3x4096 .f32) : Vec F S256x1x4096 .f32 :=
  View.ld x (Rect.unit (s := S256x3x4096) ![0, 2, 0] S256x1x4096.size inb_S256x3x4096_S256x1x4096_0_2_0)

/-- What a point leaves in the running total, found at `acc`. -/
abbrev step (x : Vec F S256x3x4096 .f32) (acc : Vec F S1x1 .f32) : Vec F S1x1 .f32 :=
  k0_pay3 (slabQ x) (slabP x) (slabN x) acc

/-- MIDDLE POINTS: the running total, found at `acc`, is left at `step x acc`. -/
theorem scratch_middle (c : Dev nD) (i : grid0.Coords) (a1 : Memref sig .tc .vmem S256x3x4096 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x : Vec F S256x3x4096 .f32) (acc : Vec F S1x1 .f32) :
    sout0_B_0 c i a1 h1 a2 h2 a3 h3 hc0 hc1 x acc = step x acc := by
  unfold sout0_B_0
  rw [View.read_writes_eq_canon _ _ _ (scover0_B_0 c i a1 h1 a2 h2 a3 h3 hc0 hc1 x acc)]
  unfold kernelRun0_B
  dsimp only
  rw [View.canon_unit_zero zeroOffsets]
  simp only [View.readAt_eq_ld, h1.read_unread, h3.read_unread, View.ld_unit_zero (S := S1x1) zeroOffsets]

/-- FIRST POINT: the running total is reset, read back, and left at `step x reset`. -/
theorem scratch_first (c : Dev nD) (i : grid0.Coords) (a1 : Memref sig .tc .vmem S256x3x4096 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x : Vec F S256x3x4096 .f32) :
    sout0_A_0 c i a1 h1 a2 h2 a3 h3 hc0 hc1 x = step x (k0_pay2 (F := F)) := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S1x1) zeroOffsets, View.readCov_unit_zero (S := S1x1) _ zeroOffsets]
  simp only [View.readAt_eq_ld, h1.read_unread]

/-- LAST POINT, the running total: as at a middle point. -/
theorem scratch_last (c : Dev nD) (i : grid0.Coords) (a1 : Memref sig .tc .vmem S256x3x4096 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S256x3x4096 .f32) (acc : Vec F S1x1 .f32) :
    sout0_C_0 c i a1 h1 a2 h2 a3 h3 hc0 hc1 x acc = step x acc := by
  unfold sout0_C_0
  rw [View.read_writes_eq_canon _ _ _ (scover0_C_0 c i a1 h1 a2 h2 a3 h3 hc0 hc1 x acc)]
  unfold kernelRun0_C
  dsimp only
  sl_unfold_words
  rw [View.canon_unit_zero zeroOffsets]
  simp only [View.readAt_eq_ld, h1.read_unread, h3.read_unread, View.ld_unit_zero (S := S1x1) zeroOffsets]

/-- LAST POINT, the output block: the finishing store's value of the running total just stored. -/
theorem output_last (c : Dev nD) (i : grid0.Coords) (a1 : Memref sig .tc .vmem S256x3x4096 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S256x3x4096 .f32) (acc : Vec F S1x1 .f32) :
    out0_C_1 c i a1 h1 a2 h2 a3 h3 hc0 hc1 x acc = k0_pay1 (step x acc) := by
  unfold out0_C_1
  rw [View.read_writes_eq_canon _ _ _ (cover0_C_1 c i a1 h1 a2 h2 a3 h3 hc0 hc1 x acc)]
  unfold kernelRun0_C
  dsimp only
  sl_unfold_words
  rw [View.canon_unit_zero zeroOffsets, View.readCov_unit_zero (S := S1x1) _ zeroOffsets]
  simp only [View.readAt_eq_ld, h1.read_unread, h3.read_unread, View.ld_unit_zero (S := S1x1) zeroOffsets]

end Cert.TripletPieces

end
-- ==== Proof.TripletSpec.lean ====
/-
  The triplet hinge loss as one function of the embeddings, and the one law that joins the two programs.

  An embedding row is a function `Fin 4096 → EReal`.  For a query `q`, a positive `p` and a negative `n`,
    `sqDist q p = ∑ k, (q k - p k) * (q k - p k)`,
    `hinge q p n = max ((1 + √(sqDist q p)) - √(sqDist q n)) 0`,
  and for the hinges `h i` of the 8192 triplets
    `loss h = max ((∑ i, h i) / 8192) 0`,
  every operation the exact one on the extended reals (`√` of a negative number and the quotient's corners
  are whatever the extended-real operations say; both programs apply the same operations, so no corner is
  ever evaluated).  The constants `1`, `0` and `8192` are kept as the float words both programs print.

  The law: a sum of `K * M` terms is the sum over `M` consecutive tiles of the sums of each tile's `K` terms.
  It uses only that addition is associative and commutative, so it holds at the infinities too.
-/
import Idealize.ShloMosaic.PureOps.Ideal
import Idealize.ShloMosaic.PureOps.Ideal.Laws
import Idealize.ShloMosaic.Lib.ValueIdx

noncomputable section

namespace Cert.TripletSpec

open Idealize.ShloMosaic

/-- The float word `1.0`, `0.0`, `8192.0` as extended reals. -/
abbrev one : EReal := Ideal.ofBits .f32 0x3F800000#32
abbrev zero : EReal := Ideal.ofBits .f32 0x00000000#32
abbrev count : EReal := Ideal.ofBits .f32 0x46000000#32

/-- The squared Euclidean distance of two rows. -/
def sqDist (a b : Fin 4096 → EReal) : EReal := ∑ k : Fin 4096, (a k - b k) * (a k - b k)

/-- The hinge of one triplet: `max ((1 + ‖q - p‖) - ‖q - n‖) 0`. -/
def hinge (q p n : Fin 4096 → EReal) : EReal :=
  max ((one + Ideal.sqrt (sqDist q p)) - Ideal.sqrt (sqDist q n)) zero

/-- The loss from the total of the hinges: the mean over 8192 triplets, clamped at zero. -/
def lossOfTotal (total : EReal) : EReal := max (Ideal.div total count) zero

/-- The embedding array: 24576 rows of 4096, the rows of triplet `i` being `3 i` (query), `3 i + 1` (positive)
    and `3 i + 2` (negative). -/
abbrev Embeddings : Type := (⟨2, ![24576, 4096]⟩ : Shape).Idx → EReal

/-- Row `s` of triplet `i`. -/
def tripletRow (X : Embeddings) (i : Fin 8192) (s : Fin 3) : Fin 4096 → EReal :=
  fun k => X (ValueIdx.ix2 (⟨3 * i.val + s.val, by omega⟩ : Fin 24576) k)

/-- The hinge of triplet `i`. -/
def hingeOf (X : Embeddings) (i : Fin 8192) : EReal :=
  hinge (tripletRow X i 0) (tripletRow X i 1) (tripletRow X i 2)

/-- THE RESULT both programs compute: the clamped mean of the 8192 hinges. -/
def lossOf (X : Embeddings) : EReal := lossOfTotal (∑ i : Fin 8192, hingeOf X i)

/-- The zero word is the extended real `0`. -/
theorem zero_eq : zero = 0 := Ideal.ofBits_zero_f32

/-- A sum of `K * M` terms, tile by tile: `M` tiles of `K` consecutive terms each. -/
theorem sum_tiles {β : Type*} [AddCommMonoid β] (g : ℕ → β) (K : ℕ) :
    ∀ M : ℕ, ∑ s ∈ Finset.range M, ∑ r ∈ Finset.range K, g (K * s + r) = ∑ i ∈ Finset.range (K * M), g i
  | 0 => by simp
  | M + 1 => by
    rw [Finset.sum_range_succ, sum_tiles g K M, Nat.mul_succ, Finset.sum_range_add]

/-- The same with the tiles' terms and the whole sum indexed by `Fin`. -/
theorem sum_tiles_fin {β : Type*} [AddCommMonoid β] (g : ℕ → β) (K M : ℕ) :
    ∑ s ∈ Finset.range M, ∑ r : Fin K, g (K * s + r.val) = ∑ i : Fin (K * M), g i.val := by
  rw [Fin.sum_univ_eq_sum_range g (K * M), ← sum_tiles g K M]
  exact Finset.sum_congr rfl fun s _ => Fin.sum_univ_eq_sum_range (fun r => g (K * s + r)) K

end Cert.TripletSpec

end
-- ==== Proof.TripletTile.lean ====
/-
  What one grid point computes, read at the extended reals.

  A grid point sees a tile of 256 triplets: three `256 × 1 × 4096` slabs `q`, `p`, `n` of its
  `256 × 3 × 4096` block (query, positive, negative), and the `1 × 1` running total `acc`.  Row `r` of a
  slab is `fun k => slab (r, 0, k)`.  The accumulating store writes
    `acc + ∑ r : Fin 256, hinge (row q r) (row p r) (row n r)`,
  the reset store writes `0`, and the finishing store writes `max (acc / 8192) 0`.

  Each lane sum is a `Fin 4096`-indexed sum of the squared differences; the casts between `256 × 1 × 4096`
  and `256 × 4096`, between `256` and `1 × 256`, and between `1` and `1 × 1` keep the row-major position.
-/
import proofs.«179347_j37873021616787_1_alg».proof.Proof.Gen.KernelIdeal.Skeleton
import proofs.«179347_j37873021616787_1_alg».proof.Proof.TripletSpec
import Idealize.ShloMosaic.Lib.ValueIdx
import Idealize.ShloMosaic.Lib.ValueLayout
import Idealize.ShloMosaic.Lib.Pipeline.Value
import Idealize.ShloMosaic.PureOps.Ideal.Laws

noncomputable section

namespace Cert.TripletTile

open Idealize.ShloMosaic Idealize.ShloMosaic.ValueIdx Cert.KernelIdeal Cert.KernelIdeal.Gen Cert.TripletSpec

/-- Row `r` of a `256 × 1 × 4096` slab. -/
def row (v : Vec Ideal S256x1x4096 .f32) (r : Fin 256) : Fin 4096 → EReal := fun k => v (ix3 r (0 : Fin 1) k)

/-- Every index of a `1 × 1` array is `(0, 0)`. -/
theorem idx11 (j : S1x1.Idx) : j = ix2 (0 : Fin 1) (0 : Fin 1) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-- A slab viewed as `256 × 4096` reads `(r, k)` at `(r, 0, k)`. -/
theorem flat_apply (v : Vec Ideal S256x1x4096 .f32) (r : Fin 256) (k : Fin 4096) :
    shapeCast S256x4096 v shapeCasts_S256x1x4096_S256x4096 (ix2 r k) = row v r k :=
  shapeCast_apply v shapeCasts_S256x1x4096_S256x4096 (ix2 r k) (ix3 r (0 : Fin 1) k) (by
    rw [Shape.rowMajor_val_three, Shape.rowMajor_val_two]
    show (r.val * 1 + 0) * 4096 + k.val = r.val * 4096 + k.val
    omega)

/-- The lane sum of the squared differences of two `256 × 4096` arrays, at row `r`. -/
theorem laneSum_apply (a b : FVec Ideal S256x4096 .f32) (r : Fin 256) :
    multiReduction (F := Ideal) .add [1] S256 (mulf (subf a b) (subf a b)) 0x00000000#32 reduces_S256x4096_S256 (.inl rfl) rfl (ix1 r)
      = ∑ k : Fin 4096, (a (ix2 r k) - b (ix2 r k)) * (a (ix2 r k) - b (ix2 r k)) := by
  refine (Ideal.multiReduction_add_single (mulf (subf a b) (subf a b)) 0x00000000#32 reduces_S256x4096_S256 (.inl rfl) rfl (ix1 r)).trans ?_
  refine Finset.sum_congr rfl fun k _ => ?_
  have e : reduces_S256x4096_S256.lift (ix1 r) k = ix2 r k :=
    funext fun d => Fin.ext (by match d with | ⟨0, _⟩ => rfl | ⟨1, _⟩ => rfl)
  rw [e]
  rfl

/-- The hinges of a tile's 256 triplets as a vector, from the three slabs viewed as `256 × 4096`. -/
def hingeVec (Q P N : FVec Ideal S256x4096 .f32) : FVec Ideal S256 .f32 :=
  maximumf
    (subf
      (addf (broadcast S256 (Scalar.ofBits (F := Ideal) .f32 0x3F800000#32))
        (sqrt (multiReduction (F := Ideal) .add [1] S256 (mulf (subf Q P) (subf Q P)) 0x00000000#32 reduces_S256x4096_S256 (.inl rfl) rfl)))
      (sqrt (multiReduction (F := Ideal) .add [1] S256 (mulf (subf Q N) (subf Q N)) 0x00000000#32 reduces_S256x4096_S256 (.inl rfl) rfl)))
    (broadcast S256 (Scalar.ofBits (F := Ideal) .f32 0x00000000#32))

/-- Entry `r` of that vector is the hinge of the tile's triplet `r`. -/
theorem hingeVec_apply (Q P N : FVec Ideal S256x4096 .f32) (r : Fin 256) :
    hingeVec Q P N (ix1 r) = hinge (fun k => Q (ix2 r k)) (fun k => P (ix2 r k)) (fun k => N (ix2 r k)) := by
  show max ((one + Ideal.sqrt (multiReduction (F := Ideal) .add [1] S256 (mulf (subf Q P) (subf Q P)) 0x00000000#32 reduces_S256x4096_S256 (.inl rfl) rfl (ix1 r)))
      - Ideal.sqrt (multiReduction (F := Ideal) .add [1] S256 (mulf (subf Q N) (subf Q N)) 0x00000000#32 reduces_S256x4096_S256 (.inl rfl) rfl (ix1 r))) zero = _
  rw [laneSum_apply, laneSum_apply]
  rfl

/-- The total of a vector of 256 numbers as the body takes it: viewed `1 × 256`, summed along the lanes, viewed
    `1 × 1`, its one entry extracted. -/
def totalOf (H : FVec Ideal S256 .f32) : EReal :=
  extractAt ![0, 0]
    (shapeCast S1x1 (multiReduction (F := Ideal) .add [1] S1 (shapeCast S1x256 H shapeCasts_S256_S1x256) 0x00000000#32 reduces_S1x256_S1 (.inl rfl) rfl) shapeCasts_S1_S1x1)
    inpos_S1x1_p0_0

/-- It is the sum of the 256 entries. -/
theorem totalOf_eq (H : FVec Ideal S256 .f32) : totalOf H = ∑ r : Fin 256, H (ix1 r) := by
  unfold totalOf extractAt
  refine (congrArg _ (idx11 _)).trans ?_
  refine (shapeCast_a_1a_apply _ shapeCasts_S1_S1x1 (0 : Fin 1) (0 : Fin 1)).trans ?_
  refine (Ideal.multiReduction_add_single (shapeCast S1x256 H shapeCasts_S256_S1x256) 0x00000000#32 reduces_S1x256_S1 (.inl rfl) rfl (ix1 (0 : Fin 1))).trans ?_
  refine Finset.sum_congr rfl fun r _ => ?_
  have e : reduces_S1x256_S1.lift (ix1 (0 : Fin 1)) r = ix2 (0 : Fin 1) r :=
    funext fun d => Fin.ext (by match d with | ⟨0, _⟩ => rfl | ⟨1, _⟩ => rfl)
  rw [e]
  exact shapeCast_a_1a_apply H shapeCasts_S256_S1x256 (0 : Fin 1) r

/-- THE ACCUMULATING STORE's value: the running total plus the sum of the tile's 256 hinges. -/
theorem accumulate_apply (q p n : Vec Ideal S256x1x4096 .f32) (acc : Vec Ideal S1x1 .f32) (j : S1x1.Idx) :
    k0_pay3 (F := Ideal) q p n acc j = acc j + ∑ r : Fin 256, hinge (row q r) (row p r) (row n r) := by
  have e : k0_pay3 (F := Ideal) q p n acc
      = shapeCast S1x1 (addf acc (broadcast S1x1 (totalOf (hingeVec
          (shapeCast S256x4096 q shapeCasts_S256x1x4096_S256x4096)
          (shapeCast S256x4096 p shapeCasts_S256x1x4096_S256x4096)
          (shapeCast S256x4096 n shapeCasts_S256x1x4096_S256x4096))))) shapeCasts_S1x1_S1x1 := rfl
  rw [e, shapeCast_self, totalOf_eq]
  show acc j + _ = _
  refine congrArg (acc j + ·) (Finset.sum_congr rfl fun r _ => ?_)
  have slabRow : ∀ v : Vec Ideal S256x1x4096 .f32,
      (fun k => shapeCast S256x4096 v shapeCasts_S256x1x4096_S256x4096 (ix2 r k)) = row v r :=
    fun v => funext fun k => flat_apply v r k
  rw [hingeVec_apply, slabRow q, slabRow p, slabRow n]

/-- THE RESET STORE's value: zero. -/
theorem reset_apply (j : S1x1.Idx) : k0_pay2 (F := Ideal) j = 0 := by
  have e : k0_pay2 (F := Ideal) = shapeCast S1x1 (broadcast S1x1 (Scalar.ofBits (F := Ideal) .f32 0x00000000#32)) shapeCasts_S1x1_S1x1 := rfl
  rw [e, shapeCast_self]
  exact zero_eq

/-- THE FINISHING STORE's value: the mean of the total over 8192 triplets, clamped at zero. -/
theorem finish_apply (acc : Vec Ideal S1x1 .f32) (j : S1x1.Idx) :
    k0_pay1 (F := Ideal) acc j = lossOfTotal (acc j) := rfl

end Cert.TripletTile

end
-- ==== Proof.TripletKernel.lean ====
/-
  The kernel computes `lossOf`.

  The region's input array is the embeddings reshaped to `8192 × 3 × 4096`; grid point `t` (of 32) sees the block
  of triplets `256 t … 256 t + 255`, whose entry `(r, s, k)` is row `3 (256 t + r) + s`, column `k` of the embeddings
  (both the row-major position `((256 t + r) * 3 + s) * 4096 + k`).  So the point adds to the running total the sum of
  the hinges of its 256 triplets; the total starts at zero at the first point; after the last point it is the sum
  over the 32 tiles of the tiles' sums, which is the sum of all 8192 hinges; and the last point's finishing store,
  the only block ever written back, is the clamped mean.
-/
import proofs.«179347_j37873021616787_1_alg».proof.Proof.Gen.KernelIdeal.Value
import proofs.«179347_j37873021616787_1_alg».proof.Proof.TripletPieces
import proofs.«179347_j37873021616787_1_alg».proof.Proof.TripletTile
import Idealize.ShloMosaic.Lib.Pipeline.Value
import Idealize.ShloMosaic.Lib.StableHlo.Run
import Idealize.ShloMosaic.Lib.ValueIdx

noncomputable section

namespace Cert.TripletKernel

open Idealize.ShloMosaic Idealize.ShloMosaic.TcCoe Idealize.SL.Sem Idealize.ShloMosaic.ValueIdx
open Cert.KernelIdeal Cert.KernelIdeal.Gen Cert.TripletSpec Cert.TripletTile Cert.TripletPieces
open Idealize.ShloMosaic.Pipeline (Dat)

variable (m : (ℓ : Loc nD τ sig) → Buf (Elt Ideal) ℓ) (ρ : Dev nD → PrngReg)

/-- The embeddings on core `c`. -/
abbrev emb (c : Dev nD) : Embeddings := m ((c : Thread nD τ).loc main_arg0)

/-- The region's input array is the embeddings reshaped to `8192 × 3 × 4096`. -/
theorem input_eq (c : Dev nD) :
    (V m c main_v0 : S8192x3x4096.Idx → EReal) = shapeCast S8192x3x4096 (emb m c) shapeCasts_S24576x4096_S8192x3x4096 := by
  dsimp only [Gen.V, Gen.hostOps0]
  after_results
  rfl

/-- Where the input window's block sits at point `t`: block index `(t, 0, 0)`. -/
theorem blockIndex : ∀ t : Fin cfg0.N,
    win0_0.index t (0 : Fin 3) = t.val ∧ win0_0.index t (1 : Fin 3) = 0 ∧ win0_0.index t (2 : Fin 3) = 0 :=
  (by decide +kernel : ∀ t : Fin grid0.N,
    win0_0.index t (0 : Fin 3) = t.val ∧ win0_0.index t (1 : Fin 3) = 0 ∧ win0_0.index t (2 : Fin 3) = 0)

/-- The number of triplet `r` of tile `t`. -/
abbrev tripletNo (t : Fin cfg0.N) (r : Fin 256) : Fin 8192 :=
  ⟨256 * t.val + r.val, by have := lt_of_lt_of_eq t.isLt (show cfg0.N = 32 from N_0); omega⟩

/-- Entry `(r, s, k)` of point `t`'s block is row `s` of triplet `256 t + r`, at `k`. -/
theorem block_apply (c : Dev nD) (t : Fin cfg0.N) (r : Fin 256) (s : Fin 3) (k : Fin 4096) :
    (iblk m c 0 t : Vec Ideal S256x3x4096 .f32) (ix3 r s k) = tripletRow (emb m c) (tripletNo t r) s k := by
  have hi := blockIndex t
  unfold iblk
  rw [View.read_apply]
  show V m c main_v0 _ = _
  rw [input_eq]
  refine shapeCast_apply _ _ _ (ix2 (⟨3 * (256 * t.val + r.val) + s.val, by
    have := lt_of_lt_of_eq t.isLt (show cfg0.N = 32 from N_0); omega⟩ : Fin 24576) k) ?_
  rw [Shape.rowMajor_val_two, Shape.rowMajor_val_three]
  show (3 * (256 * t.val + r.val) + s.val) * 4096 + k.val
    = ((win0_0.index t 0 * 256 + 1 * r.val) * 3 + (win0_0.index t 1 * 3 + 1 * s.val)) * 4096 + (win0_0.index t 2 * 4096 + 1 * k.val)
  rw [hi.1, hi.2.1, hi.2.2]
  omega

/-- The rows of the point's three slabs are the rows of its triplets. -/
theorem slabQ_row (c : Dev nD) (t : Fin cfg0.N) (r : Fin 256) :
    row (slabQ (iblk m c 0 t)) r = tripletRow (emb m c) (tripletNo t r) 0 := by
  funext k
  refine Eq.trans ?_ (block_apply m c t r 0 k)
  show (iblk m c 0 t : Vec Ideal S256x3x4096 .f32) _ = _
  exact congrArg _ (funext fun a => Fin.ext (by
    match a with
    | ⟨0, _⟩ => show 0 + 1 * r.val = r.val; omega
    | ⟨1, _⟩ => show 0 + 1 * 0 = 0; rfl
    | ⟨2, _⟩ => show 0 + 1 * k.val = k.val; omega))

theorem slabP_row (c : Dev nD) (t : Fin cfg0.N) (r : Fin 256) :
    row (slabP (iblk m c 0 t)) r = tripletRow (emb m c) (tripletNo t r) 1 := by
  funext k
  refine Eq.trans ?_ (block_apply m c t r 1 k)
  show (iblk m c 0 t : Vec Ideal S256x3x4096 .f32) _ = _
  exact congrArg _ (funext fun a => Fin.ext (by
    match a with
    | ⟨0, _⟩ => show 0 + 1 * r.val = r.val; omega
    | ⟨1, _⟩ => show 1 + 1 * 0 = 1; rfl
    | ⟨2, _⟩ => show 0 + 1 * k.val = k.val; omega))

theorem slabN_row (c : Dev nD) (t : Fin cfg0.N) (r : Fin 256) :
    row (slabN (iblk m c 0 t)) r = tripletRow (emb m c) (tripletNo t r) 2 := by
  funext k
  refine Eq.trans ?_ (block_apply m c t r 2 k)
  show (iblk m c 0 t : Vec Ideal S256x3x4096 .f32) _ = _
  exact congrArg _ (funext fun a => Fin.ext (by
    match a with
    | ⟨0, _⟩ => show 0 + 1 * r.val = r.val; omega
    | ⟨1, _⟩ => show 2 + 1 * 0 = 2; rfl
    | ⟨2, _⟩ => show 0 + 1 * k.val = k.val; omega))

/-- The hinge of triplet number `n`, for any natural `n` (zero past the last triplet: never used). -/
def hingeAt (X : Embeddings) (n : ℕ) : EReal := if h : n < 8192 then hingeOf X ⟨n, h⟩ else 0

/-- The sum of the hinges of tile `n`: triplets `256 n … 256 n + 255`. -/
def tileTotal (c : Dev nD) (n : ℕ) : EReal := ∑ r : Fin 256, hingeAt (emb m c) (256 * n + r.val)

/-- ONE POINT: the running total grows by the point's tile total. -/
theorem step_apply (c : Dev nD) (t : Fin cfg0.N) (acc : Vec Ideal S1x1 .f32) (j : S1x1.Idx) :
    step (iblk m c 0 t) acc j = acc j + tileTotal m c t.val := by
  show k0_pay3 (F := Ideal) (slabQ (iblk m c 0 t)) (slabP (iblk m c 0 t)) (slabN (iblk m c 0 t)) acc j = _
  rw [accumulate_apply]
  refine congrArg (acc j + ·) (Finset.sum_congr rfl fun r _ => ?_)
  rw [slabQ_row, slabP_row, slabN_row]
  have h : 256 * t.val + r.val < 8192 := (tripletNo t r).isLt
  unfold hingeAt
  rw [dif_pos h]
  rfl

/-- THE RUNNING TOTAL after point `n`: the sum of the tile totals of points `0 … n`. -/
theorem total_after (c : Dev nD) (n : ℕ) (hn : n < cfg0.N) (j : S1x1.Idx) :
    (outsAt0 m c n hn).2 j = ∑ s ∈ Finset.range (n + 1), tileTotal m c s := by
  have hN : cfg0.N = 32 := N_0
  rw [Cert.KernelIdeal.Value.soutsAt0_0_sweep m c n hn]
  have key := Pipeline.accAt_add_apply (N := cfg0.N) (ι := S1x1.Idx) (β := EReal)
    (fun n h => Cert.KernelIdeal.Value.scAt0_0 m c n h (VS0_0.read (Elt Ideal) VS0_0.junk))
    (Cert.KernelIdeal.Value.scAt0_0 m c) (fun _ => 0) (fun s _ => tileTotal m c s) 0 31
    (fun h i => by
      unfold Cert.KernelIdeal.Value.scAt0_0
      rw [dif_pos (Nat.zero_mod 32), dif_neg (by decide : ¬0 % 32 = 31), scratch_first, step_apply m c ⟨0, h⟩, reset_apply])
    (fun n h acc i hpos hle => by
      have h0 : ¬n % 32 = 0 := by omega
      unfold Cert.KernelIdeal.Value.scAt0_0
      rw [dif_neg h0]
      by_cases h1 : n % 32 = 31
      · rw [dif_pos h1, scratch_last, step_apply m c ⟨n, h⟩]
      · rw [dif_neg h1, scratch_middle, step_apply m c ⟨n, h⟩])
    n (by omega) (by omega) j
  simpa only [Nat.zero_add, zero_add] using key

/-- The 32 tile totals add up to the sum of all 8192 hinges. -/
theorem tiles_total (c : Dev nD) :
    ∑ s ∈ Finset.range 32, tileTotal m c s = ∑ i : Fin 8192, hingeOf (emb m c) i := by
  unfold tileTotal
  rw [sum_tiles_fin (hingeAt (emb m c)) 256 32]
  show ∑ i : Fin 8192, hingeAt (emb m c) i.val = _
  exact Finset.sum_congr rfl fun i _ => dif_pos i.isLt

/-- THE LAST POINT'S OUTPUT BLOCK: every entry is the loss. -/
theorem output_apply (c : Dev nD) (t : Fin cfg0.N) (h31 : t.val % 32 = 31) (y : S1x1.Idx) :
    (outsAt0 m c t.val t.isLt).1 y = lossOf (emb m c) := by
  have hN : t.val < 32 := lt_of_lt_of_eq t.isLt (show cfg0.N = 32 from N_0)
  have h0 : ¬t.val % 32 = 0 := by omega
  have ht : t.val + 1 = 32 := by omega
  have e : (outsAt0 m c t.val t.isLt).1 = k0_pay1 (F := Ideal) ((outsAt0 m c t.val t.isLt).2) := by
    rw [outsAt0_C m c t h0 h31]
    dsimp only
    rw [output_last, scratch_last]
  rw [e, finish_apply, total_after, ht, tiles_total]
  rfl

/-- The result array's contents: its one entry is the loss. -/
abbrev result (c : Dev nD) : Buf (Elt Ideal) ((c : Thread nD τ).loc main_v1) := fun _ => lossOf (emb m c)

/-- The one write-back, at the last point, writes it. -/
theorem flushed_eq (c : Dev nD) (t : Fin cfg0.N) (hf : (cfg0.win 1).flush t = true) :
    (dats m 0 c).flushed 1 t = ((cfg0.win 1).blk t).view.read (Elt Ideal) (result m c) := by
  have h31 := (flush0_1 t).mp hf
  rw [Cert.KernelIdeal.Value.flushed1]
  funext y
  rw [View.read_apply]
  exact output_apply m c t h31 _

/-- The last grid point. -/
abbrev lastPoint : Fin cfg0.N := ⟨31, by rw [show cfg0.N = 32 from N_0]; decide⟩

/-- So the result array ends holding the loss: the last point's block is the whole `1 × 1` array. -/
theorem final (c : Dev nD) : (dats m 0 c).arrAt 1 cfg0.N = result m c :=
  (dats m 0 c).arrAt_eq_of_cover 1 (result m c) (flushed_eq m c) fun i =>
    ⟨lastPoint, (flush0_1 lastPoint).mpr rfl, by
      show i ∈ ((View.whole main_v1).slice (win0_1.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index lastPoint 0 * win0_1.size 0 ≤ (i 0 : Nat) ∧ (i 0 : Nat) < win0_1.index lastPoint 0 * win0_1.size 0 + win0_1.xsize (grid0.coords lastPoint) 0
        rw [show win0_1.index lastPoint 0 * win0_1.size 0 = 0 from by decide +kernel, show win0_1.xsize (grid0.coords lastPoint) 0 = 1 from by decide +kernel]
        omega
      | ⟨1, _⟩ =>
        show win0_1.index lastPoint 1 * win0_1.size 1 ≤ (i 1 : Nat) ∧ (i 1 : Nat) < win0_1.index lastPoint 1 * win0_1.size 1 + win0_1.xsize (grid0.coords lastPoint) 1
        rw [show win0_1.index lastPoint 1 * win0_1.size 1 = 0 from by decide +kernel, show win0_1.xsize (grid0.coords lastPoint) 1 = 1 from by decide +kernel]
        omega⟩

/-- THE KERNEL'S RUN: every weakly fair execution terminates with the result array at the loss of the
    embeddings and both arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.TripletKernel

end
-- ==== Proof.TripletRef.lean ====
/-
  The reference computes `lossOf`.

  Read one operation at a time: the reshape to `8192 × 3 × 4096` followed by a slice at `s` and the reshape to
  `8192 × 4096` reads `(i, k)` at row `3 i + s`, column `k` of the array (both are the row-major position
  `(3 i + s) * 4096 + k`); each row sum is `0 + ∑ k` of the squared differences; the sum over the triplets is
  `0 + ∑` over the one-axis indices, re-indexed by `Fin 8192`; the quotient and the clamp are the specification's;
  the last reshape, from rank 0 to `1 × 1`, reads the one scalar.
-/
import proofs.«179347_j37873021616787_1_alg».proof.Proof.Gen.ReferenceIdeal.Read
import proofs.«179347_j37873021616787_1_alg».proof.Proof.TripletSpec
import Idealize.ShloMosaic.Lib.ValueIdx

noncomputable section

namespace Cert.TripletRef

open Idealize.ShloMosaic Idealize.ShloMosaic.ValueIdx Cert.ReferenceIdeal Cert.ReferenceIdeal.Read Cert.TripletSpec

variable (X : (⟨S24576x4096, .f32⟩ : BufTy).Contents (Elt Ideal))

/-- The query rows: `(i, k)` of the first slice is row `3 i`, column `k`. -/
theorem query_apply (i : Fin 8192) (k : Fin 4096) : val_main_v2 (F := Ideal) X (ix2 i k) = tripletRow X i 0 k := by
  rw [val_main_v2_apply, val_main_v1_apply, val_main_v0_apply]
  have hi := i.isLt; have hk := k.isLt
  exact congrArg X (funext fun a => Fin.ext (by
    match a with
    | ⟨0, _⟩ =>
      show ((((i.val * 4096 + k.val) / 4096) * 3 + ((0 : ℕ))) * 4096 + (i.val * 4096 + k.val) % 4096) / 4096 = 3 * i.val + 0
      omega
    | ⟨1, _⟩ =>
      show ((((i.val * 4096 + k.val) / 4096) * 3 + ((0 : ℕ))) * 4096 + (i.val * 4096 + k.val) % 4096) % 4096 = k.val
      omega))

/-- The positive rows: row `3 i + 1`. -/
theorem positive_apply (i : Fin 8192) (k : Fin 4096) : val_main_v4 (F := Ideal) X (ix2 i k) = tripletRow X i 1 k := by
  rw [val_main_v4_apply, val_main_v3_apply, val_main_v0_apply]
  have hi := i.isLt; have hk := k.isLt
  exact congrArg X (funext fun a => Fin.ext (by
    match a with
    | ⟨0, _⟩ =>
      show ((((i.val * 4096 + k.val) / 4096) * 3 + (1 + 0)) * 4096 + (i.val * 4096 + k.val) % 4096) / 4096 = 3 * i.val + 1
      omega
    | ⟨1, _⟩ =>
      show ((((i.val * 4096 + k.val) / 4096) * 3 + (1 + 0)) * 4096 + (i.val * 4096 + k.val) % 4096) % 4096 = k.val
      omega))

/-- The negative rows: row `3 i + 2`. -/
theorem negative_apply (i : Fin 8192) (k : Fin 4096) : val_main_v6 (F := Ideal) X (ix2 i k) = tripletRow X i 2 k := by
  rw [val_main_v6_apply, val_main_v5_apply, val_main_v0_apply]
  have hi := i.isLt; have hk := k.isLt
  exact congrArg X (funext fun a => Fin.ext (by
    match a with
    | ⟨0, _⟩ =>
      show ((((i.val * 4096 + k.val) / 4096) * 3 + (2 + 0)) * 4096 + (i.val * 4096 + k.val) % 4096) / 4096 = 3 * i.val + 2
      omega
    | ⟨1, _⟩ =>
      show ((((i.val * 4096 + k.val) / 4096) * 3 + (2 + 0)) * 4096 + (i.val * 4096 + k.val) % 4096) % 4096 = k.val
      omega))

/-- The first row sum: the squared distance of the query and the positive. -/
theorem sqPos_apply (i : Fin 8192) : val_main_v9 (F := Ideal) X (ix1 i) = sqDist (tripletRow X i 0) (tripletRow X i 1) := by
  rw [val_main_v9_apply]
  show Ideal.ofBits .f32 0x00000000#32 + _ = _
  rw [Ideal.ofBits_zero_f32, zero_add]
  refine Finset.sum_congr rfl fun k _ => ?_
  have e : idx_main_v9 (ix1 i) k = ix2 i k :=
    funext fun a => Fin.ext (by match a with | ⟨0, _⟩ => rfl | ⟨1, _⟩ => rfl)
  rw [e, val_main_v8_apply, val_main_v7_apply, query_apply, positive_apply]
  rfl

/-- The second row sum: the squared distance of the query and the negative. -/
theorem sqNeg_apply (i : Fin 8192) : val_main_v13 (F := Ideal) X (ix1 i) = sqDist (tripletRow X i 0) (tripletRow X i 2) := by
  rw [val_main_v13_apply]
  show Ideal.ofBits .f32 0x00000000#32 + _ = _
  rw [Ideal.ofBits_zero_f32, zero_add]
  refine Finset.sum_congr rfl fun k _ => ?_
  have e : idx_main_v13 (ix1 i) k = ix2 i k :=
    funext fun a => Fin.ext (by match a with | ⟨0, _⟩ => rfl | ⟨1, _⟩ => rfl)
  rw [e, val_main_v12_apply, val_main_v11_apply, query_apply, negative_apply]
  rfl

/-- Entry `i` of the hinge vector is the hinge of triplet `i`. -/
theorem hinge_apply (i : Fin 8192) : val_main_v19 (F := Ideal) X (ix1 i) = hingeOf X i := by
  rw [val_main_v19_apply, val_main_v17_apply, val_main_v16_apply, val_main_v10_apply, val_main_v14_apply,
    sqPos_apply, sqNeg_apply, val_main_v15_apply, val_main_v18_apply]
  rfl

/-- The one-axis indices of extent 8192 are `Fin 8192`. -/
def idxEquiv : S8192.Idx ≃ Fin 8192 where
  toFun j := j 0
  invFun := ix1
  left_inv j := (eq_ix1 j).symm
  right_inv _ := rfl

/-- The total of the hinges. -/
theorem total_apply (j : S_.Idx) : val_main_v20 (F := Ideal) X j = ∑ i : Fin 8192, hingeOf X i := by
  rw [val_main_v20_apply]
  show Ideal.ofBits .f32 0x00000000#32 + _ = _
  rw [Ideal.ofBits_zero_f32, zero_add]
  exact Fintype.sum_equiv idxEquiv _ _ fun j => (congrArg (val_main_v19 (F := Ideal) X) (eq_ix1 j)).trans (hinge_apply X (j 0))

/-- THE REFERENCE'S RESULT: its one entry is `lossOf`. -/
theorem result_apply (j : S1x1.Idx) : val_main_v23 (F := Ideal) X j = lossOf X := by
  have e : val_main_v23 (F := Ideal) X j = val_main_v22 (F := Ideal) X ix0 :=
    congrArg (val_main_v22 (F := Ideal) X) (eq_ix0 _)
  rw [e, val_main_v22_apply, val_main_v21_apply, total_apply]
  rfl

end Cert.TripletRef

end
-- ==== Proof.lean ====
/-
  The triplet hinge loss kernel against its reference, over the extended reals.

  Both programs take the `24576 × 4096` embeddings, whose rows `3 i`, `3 i + 1`, `3 i + 2` are the query, the
  positive and the negative of triplet `i` (`i < 8192`), and return the `1 × 1` array holding
    `max ((∑ i, hinge i) / 8192) 0`,   `hinge i = max ((1 + √(∑ k, (q - p)²)) - √(∑ k, (q - n)²)) 0`
  (`Cert.TripletSpec.lossOf`).  The reference computes it in one pass (Proof/TripletRef.lean).  The kernel walks a
  grid of 32 points, each adding the hinges of its 256 triplets to a running total it keeps between points, and
  divides and clamps at the last point (Proof/TripletPieces.lean: what each point leaves; Proof/TripletTile.lean:
  one point's arithmetic; Proof/TripletKernel.lean: the total after every point and the result array).  The two agree
  because a sum of `256 * 32` terms is the sum of its 32 tiles' sums (`Cert.TripletSpec.sum_tiles_fin`): only the
  associativity and commutativity of addition, which hold at the infinities too, so the precondition is not used.

  The three frame claims are the programs' runs with the results dropped; the idealization rewrote nothing, so the
  preservation claim is `True`.
-/
import proofs.«179347_j37873021616787_1_alg».proof.Defs
import proofs.«179347_j37873021616787_1_alg».proof.Proof.Gen.Kernel
import proofs.«179347_j37873021616787_1_alg».proof.Proof.Gen.Kernel.Skeleton
import proofs.«179347_j37873021616787_1_alg».proof.Proof.Gen.Kernel.Launch
import proofs.«179347_j37873021616787_1_alg».proof.Proof.Gen.Kernel.Points
import proofs.«179347_j37873021616787_1_alg».proof.Proof.Gen.Kernel.Frame
import proofs.«179347_j37873021616787_1_alg».proof.Proof.Gen.KernelIdeal
import proofs.«179347_j37873021616787_1_alg».proof.Proof.Gen.KernelIdeal.Skeleton
import proofs.«179347_j37873021616787_1_alg».proof.Proof.Gen.KernelIdeal.Launch
import proofs.«179347_j37873021616787_1_alg».proof.Proof.Gen.KernelIdeal.Points
import proofs.«179347_j37873021616787_1_alg».proof.Proof.Gen.KernelIdeal.Frame
import proofs.«179347_j37873021616787_1_alg».proof.Proof.Gen.ReferenceIdeal
import proofs.«179347_j37873021616787_1_alg».proof.Proof.Gen.Pre_finite_inputs
import proofs.«179347_j37873021616787_1_alg».proof.Proof.Gen.KernelIdeal.Value
import proofs.«179347_j37873021616787_1_alg».proof.Proof.Gen.ReferenceIdeal.Run
import proofs.«179347_j37873021616787_1_alg».proof.Proof.Gen.ReferenceIdeal.Read
import proofs.«179347_j37873021616787_1_alg».proof.Proof.TripletKernel
import proofs.«179347_j37873021616787_1_alg».proof.Proof.TripletRef
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the embeddings both programs end with the result array at the loss of the
    embeddings: the kernel by its run over the grid, the reference by its run read one operation at a time. -/
theorem algebraic : Cert.algebraic_KernelIdeal_ReferenceIdeal := by
  intro m ρ m' ρ' _ hagree
  refine ⟨fun c => Cert.TripletKernel.result m c, Cert.TripletKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq]
  funext j
  rw [Cert.TripletRef.result_apply, (hagree c).1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
